-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x2048 : Shape := ⟨2, ![1024, 2048]⟩
abbrev S2048 : Shape := ⟨1, ![2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S16384x512 .f32) (main_arg1 : FVec F S16384x512 .f32) (main_arg2 : FVec F S16384x512 .f32) (main_arg3 : FVec F S1024x2048 .f32) (main_arg4 : FVec F S2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_v13 main_v16
-- ==== Kernel.lean ====
abbrev S16384x512 : Shape := ⟨2, ![16384, 512]⟩
abbrev S1024x2048 : Shape := ⟨2, ![1024, 2048]⟩
abbrev S2048 : Shape := ⟨1, ![2048]⟩
abbrev S1x2048 : Shape := ⟨2, ![1, 2048]⟩
abbrev S1024x512 : Shape := ⟨2, ![1024, 512]⟩
abbrev S512x2048 : Shape := ⟨2, ![512, 2048]⟩
abbrev S512x512 : Shape := ⟨2, ![512, 512]⟩

abbrev nBuf : Space → Nat
  | .hbm => 9
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x2048, .f32⟩
  | .hbm, ⟨4, _⟩ => ⟨S2048, .f32⟩
  | .hbm, ⟨5, _⟩ => ⟨S1024x2048, .bf16⟩
  | .hbm, ⟨6, _⟩ => ⟨S1x2048, .f32⟩
  | .hbm, ⟨7, _⟩ => ⟨S16384x512, .f32⟩
  | .hbm, ⟨8, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | .local _ .vmem, ⟨7, _⟩ => ⟨S1x2048, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v26 : BitVec 32 := Scalar.addi c0_i32 c2_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v27 : BitVec 32 := Scalar.muli arg9 c512_i32
  v27
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v27 : BitVec 32 := Scalar.muli arg9 c512_i32
  let v28 : BitVec 32 := v27
  let v29 : Index := Scalar.indexCast v28
  let c0_20 : Index := 0#32
  ![v29.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v27 : BitVec 32 := Scalar.muli arg9 c512_i32
  let v28 : BitVec 32 := v27
  let v57 : Index := Scalar.indexCast v28
  let c0_30 : Index := 0#32
  ![v57.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  inb_S1024x2048_S512x2048_0_0 : ∀ a, (![0, 0] : Fin 2 → Nat) a + S512x2048.size a ≤ S1024x2048.size a
  h_S512x2048 : 0 < S512x2048.numel
  shapeCasts_S512x2048_S512x2048 : S512x2048.ShapeCasts S512x2048
  inb_S1024x2048_S512x2048_512_0 : ∀ a, (![512, 0] : Fin 2 → Nat) a + S512x2048.size a ≤ S1024x2048.size a
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  h_S512x512 : 0 < S512x512.numel
  dot_S1024x512_S512x2048_S1024x2048_1_0_0_1_n_n_wf : DotDims.WF S1024x512 S512x2048 S1024x2048 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x2048.size a ≤ S1024x2048.size a
  k0_off2_inb : ∀ k0_t1 : Fin k0_t1_loop.trips, ∀ a, (k0_off2 k0_t1) a + S512x512.size a ≤ S1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x512.size a
  hwx0_5 : ∀ i : grid0.Coords, EltTy.bits .f32 = 32 ∨ (Rect.block (s := S16384x512) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x2048 : Shape := ⟨2, ![1024, 2048]⟩
abbrev S2048 : Shape := ⟨1, ![2048]⟩
abbrev S16384x1024 : Shape := ⟨2, ![16384, 1024]⟩
abbrev S16384x2048 : Shape := ⟨2, ![16384, 2048]⟩
abbrev S1x2048 : Shape := ⟨2, ![1, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x2048, .f32⟩
  | .hbm, ⟨4, _⟩ => ⟨S2048, .f32⟩
  | .hbm, ⟨5, _⟩ => ⟨S16384x1024, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.LibLogisticTanh.lean ====
/-
  Scalar facts on the extended reals behind the LSTM cell: the two float literals the programs spell (one half in the
  kernel, one in the reference), and the identity
      1/2 · tanh (z / 2) + 1/2 = 1 / (1 + e^(-z)),
  the logistic function written through tanh. It holds at EVERY extended real: on the reals it is the usual identity
  (with a = e^(z/2): (a - 1/a)/(a + 1/a) + 1 = 2a/(a + 1/a) = 2/(1 + 1/a²)), at +∞ both sides are 1 and at -∞ both are 0.
-/
import Idealize.ShloMosaic.PureOps.Ideal

noncomputable section

namespace Cert.LstmCell

open Idealize.ShloMosaic

/-- The word 0x3F000000 is the real 1/2. -/
theorem ofBits_half : Ideal.ofBits .f32 0x3F000000#32 = ((1 / 2 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- On the reals: 1/2 · tanh (r/2) + 1/2 = 1 / (1 + e^(-r)). -/
theorem real_logistic_eq_tanh (r : ℝ) :
    (1 / 2 : ℝ) * Real.tanh (1 / 2 * r) + 1 / 2 = (1 + Real.exp (-r))⁻¹ := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  field_simp
  ring

/-- The same on the extended reals, the infinities included: tanh is ±1 there, and the logistic function 1 and 0. -/
theorem logistic_eq_tanh (z : EReal) :
    ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | coe r =>
    rw [← EReal.coe_mul, Ideal.tanh_coe, ← EReal.coe_mul, ← EReal.coe_add, Ideal.logistic_coe, real_logistic_eq_tanh]
  | top =>
    rw [EReal.coe_mul_top_of_pos (by norm_num), Ideal.tanh_top, Ideal.logistic_top, mul_one, ← EReal.coe_add]
    norm_num

/-- jax's expansion of the logistic function, one divided by one plus the exponential of the negation, is the
    logistic function. -/
theorem div_one_add_exp_neg (z : EReal) : Ideal.div 1 (1 + Ideal.exp (-z)) = Ideal.logistic z := rfl

end Cert.LstmCell

end
-- ==== Proof.CellSpec.lean ====
/-
  The LSTM cell as ONE function of the five argument arrays, index by index, over the extended reals.

  For batch row r the gate pre-activations are the 2048 numbers
      g r j = (Σ_{k<512} x r k · W k j + Σ_{k<512} h r k · W (512 + k) j) + b j,
  the row [x r, h r] of length 1024 times the weight matrix, written as the sum over its first half plus the sum over
  its second half, plus the bias. Columns j = q, 512 + q, 1024 + q, 1536 + q (q < 512) are the input, forget, candidate
  and output gates of unit q. With σ the logistic function,
      c' r q = σ (g r (512 + q)) · c r q + σ (g r q) · tanh (g r (1024 + q)),
      h' r q = σ (g r (1536 + q)) · tanh (c' r q).
  A sum over 1024 terms is the sum over the first 512 plus the sum over the last 512 (addition on the extended reals is
  commutative and associative; no finiteness is used).
-/
import proofs.«103331_j47863115547325_2_alg».proof.Proof.LibLogisticTanh
import Idealize.ShloMosaic.Lib.ValueIdx

noncomputable section

namespace Cert.LstmCell

open Idealize.ShloMosaic Idealize.ShloMosaic.ValueIdx
open scoped BigOperators

/-- Gate columns of unit `q`: input, forget, candidate, output. -/
abbrev colI (q : Fin 512) : Fin 2048 := ⟨q.val, by omega⟩
abbrev colF (q : Fin 512) : Fin 2048 := ⟨512 + q.val, by omega⟩
abbrev colC (q : Fin 512) : Fin 2048 := ⟨1024 + q.val, by omega⟩
abbrev colO (q : Fin 512) : Fin 2048 := ⟨1536 + q.val, by omega⟩
/-- Row `k` of the weight matrix's upper half (multiplied with the input) and of its lower half (with the previous
    hidden state). -/
abbrev rowLo (k : Fin 512) : Fin 1024 := ⟨k.val, by omega⟩
abbrev rowHi (k : Fin 512) : Fin 1024 := ⟨512 + k.val, by omega⟩

/-- One batch row's gate pre-activations from that row of the input `xr`, of the previous hidden state `hr`, the
    weights and the bias. -/
def gateRow (xr hr : Fin 512 → EReal) (W : Fin 1024 → Fin 2048 → EReal) (b : Fin 2048 → EReal) (j : Fin 2048) : EReal :=
  (∑ k : Fin 512, xr k * W (rowLo k) j + ∑ k : Fin 512, hr k * W (rowHi k) j) + b j

/-- The new cell state of unit `q` from the row's gates `g` and the previous cell state `cp`. -/
def cellC (g : Fin 2048 → EReal) (cp : EReal) (q : Fin 512) : EReal :=
  Ideal.logistic (g (colF q)) * cp + Ideal.logistic (g (colI q)) * Ideal.tanh (g (colC q))

/-- The new hidden state of unit `q`. -/
def cellH (g : Fin 2048 → EReal) (cp : EReal) (q : Fin 512) : EReal :=
  Ideal.logistic (g (colO q)) * Ideal.tanh (cellC g cp q)

/-- A sum over 1024 terms is the sum over the first 512 plus the sum over the last 512. -/
theorem sum_halves (f : Fin 1024 → EReal) :
    ∑ k : Fin 1024, f k = ∑ k : Fin 512, f (rowLo k) + ∑ k : Fin 512, f (rowHi k) :=
  Fin.sum_univ_add (a := 512) (b := 512) f

/-- The gates of a row from the concatenated row `[xr, hr]` times the weights in ONE sum over 1024 terms. -/
theorem gateRow_eq_sum (xr hr : Fin 512 → EReal) (W : Fin 1024 → Fin 2048 → EReal) (b : Fin 2048 → EReal)
    (cat : Fin 1024 → EReal) (hlo : ∀ k, cat (rowLo k) = xr k) (hhi : ∀ k, cat (rowHi k) = hr k) (j : Fin 2048) :
    (∑ k : Fin 1024, cat k * W k j) + b j = gateRow xr hr W b j := by
  unfold gateRow
  rw [sum_halves]
  simp only [hlo, hhi]

/-! ## The two result arrays -/

abbrev SBU : Shape := ⟨2, ![16384, 512]⟩
abbrev SW : Shape := ⟨2, ![1024, 2048]⟩
abbrev SBias : Shape := ⟨1, ![2048]⟩

/-- Batch row `r`'s gates from the argument arrays. -/
abbrev gates (x h : SBU.Idx → EReal) (W : SW.Idx → EReal) (b : SBias.Idx → EReal) (r : Fin 16384) : Fin 2048 → EReal :=
  gateRow (fun k => x (ix2 r k)) (fun k => h (ix2 r k)) (fun k j => W (ix2 k j)) (fun j => b (ix1 j))

/-- The new cell state, as an array. -/
def outC (x h cp : SBU.Idx → EReal) (W : SW.Idx → EReal) (b : SBias.Idx → EReal) : SBU.Idx → EReal :=
  fun i => cellC (gates x h W b (i 0)) (cp i) (i 1)

/-- The new hidden state, as an array. -/
def outH (x h cp : SBU.Idx → EReal) (W : SW.Idx → EReal) (b : SBias.Idx → EReal) : SBU.Idx → EReal :=
  fun i => cellH (gates x h W b (i 0)) (cp i) (i 1)

end Cert.LstmCell

end
-- ==== Proof.RefValue.lean ====
/-
  The reference program's two results are the cell's two arrays.

  The reference joins each input row with the previous hidden state's row into one row of length 1024, multiplies by
  the whole weight matrix in ONE sum over 1024 terms and adds the bias; that sum is the sum over the input's 512 terms
  plus the sum over the hidden state's 512 terms, which is the gate row of the specification. It then slices the four
  gates by columns 0, 512, 1024, 1536 and applies the logistic function in the expanded form 1 / (1 + e^(-z)), which
  is the logistic function by definition, and tanh.
-/
import proofs.«103331_j47863115547325_2_alg».proof.Proof.CellSpec
import proofs.«103331_j47863115547325_2_alg».proof.Proof.Gen.ReferenceIdeal.Read
import Idealize.ShloMosaic.Lib.Pipeline.Value
import Idealize.ShloMosaic.Lib.ValueIdx

noncomputable section

namespace Cert.LstmCell.Reference

open Cert.ReferenceIdeal Cert.ReferenceIdeal.Gen Cert.ReferenceIdeal.Read Cert.LstmCell
open Idealize.ShloMosaic Idealize.ShloMosaic.ValueIdx
open scoped BigOperators

/-- The joined row's first 512 places are the input's row. -/
theorem joined_lo (x0 x1 : SBU.Idx → EReal) (r : Fin 16384) (k : Fin 512) :
    val_main_v0 (F := Ideal) x0 x1 (ix2 r (rowLo k)) = x0 (ix2 r k) := by
  unfold val_main_v0
  exact concatenate_pair_apply_left 1 x0 x1 concatenates_S16384x512_S16384x512_S16384x1024_d1 (ix2 r (rowLo k)) rfl (ix2 r k)
    (fun b => match b with
      | ⟨0, _⟩ => rfl
      | ⟨1, _⟩ => rfl)

/-- Its last 512 places are the previous hidden state's row. -/
theorem joined_hi (x0 x1 : SBU.Idx → EReal) (r : Fin 16384) (k : Fin 512) :
    val_main_v0 (F := Ideal) x0 x1 (ix2 r (rowHi k)) = x1 (ix2 r k) := by
  unfold val_main_v0
  exact concatenate_pair_apply_right 1 x0 x1 concatenates_S16384x512_S16384x512_S16384x1024_d1 (ix2 r (rowHi k)) rfl rfl (ix2 r k)
    (fun b hb => match b, hb with
      | ⟨0, _⟩, _ => rfl
      | ⟨1, _⟩, hb => absurd rfl hb)
    (by show k.val + 512 = 512 + k.val; omega)

/-- The reference's gate pre-activations, at row `r` and column `j`, are the specification's. -/
theorem gate_apply (x0 x1 : SBU.Idx → EReal) (x3 : SW.Idx → EReal) (x4 : SBias.Idx → EReal) (r : Fin 16384) (j : Fin 2048) :
    val_main_v4 (F := Ideal) x0 x1 x3 x4 (ix2 r j) = gates x0 x1 x3 x4 r j := by
  rw [val_main_v4_apply, val_main_v1_apply, val_main_v3_apply, val_main_v2_apply]
  have er : ∀ k : Fin 1024, ridx_main_v1 (ix2 r j) k = ix2 k j := fun k => funext fun a => Fin.ext (by
    match a with
    | ⟨0, _⟩ => rfl
    | ⟨1, _⟩ => rfl)
  have el : ∀ k : Fin 1024, lidx_main_v1 (ix2 r j) k = ix2 r k := fun k => funext fun a => Fin.ext (by
    match a with
    | ⟨0, _⟩ => rfl
    | ⟨1, _⟩ => rfl)
  have eb : idx_main_v2 (idx_main_v3 (ix2 r j)) = ix1 j := funext fun a => Fin.ext (by
    match a with
    | ⟨0, _⟩ => rfl)
  simp only [er, el, eb]
  exact gateRow_eq_sum (fun k => x0 (ix2 r k)) (fun k => x1 (ix2 r k)) (fun k j => x3 (ix2 k j)) (fun j => x4 (ix1 j))
    (fun k => val_main_v0 (F := Ideal) x0 x1 (ix2 r k)) (joined_lo x0 x1 r) (joined_hi x0 x1 r) j

/-- One divided by one plus the exponential of the negation, for any spelling `one` of 1, is the logistic function. -/
theorem logistic_expanded (one : EReal) (h1 : one = 1) (z : EReal) :
    FloatOps.hostDivf (F := Ideal) (φ := .f32) one (FloatOps.addf (F := Ideal) (φ := .f32) one (FloatOps.hostUnary (F := Ideal) (φ := .f32) .exp (FloatOps.hostNegf (F := Ideal) (φ := .f32) z)))
      = Ideal.logistic z := by
  subst h1; rfl

/-- THE REFERENCE'S SECOND RESULT, the new cell state. -/
theorem new_c_eq (x0 x1 x2 : SBU.Idx → EReal) (x3 : SW.Idx → EReal) (x4 : SBias.Idx → EReal) :
    val_main_v24 (F := Ideal) x0 x1 x2 x3 x4 = outC x0 x1 x2 x3 x4 := by
  funext i
  obtain ⟨r, q, rfl⟩ : ∃ (r : Fin 16384) (q : Fin 512), i = ix2 r q := ⟨i 0, i 1, eq_ix2 i⟩
  have e5 : idx_main_v5 (ix2 r q) = ix2 r (colI q) := funext fun a => Fin.ext (by
    match a with
    | ⟨0, _⟩ => rfl
    | ⟨1, _⟩ => rfl)
  have e6 : idx_main_v6 (ix2 r q) = ix2 r (colF q) := funext fun a => Fin.ext (by
    match a with
    | ⟨0, _⟩ => rfl
    | ⟨1, _⟩ => rfl)
  have e7 : idx_main_v7 (ix2 r q) = ix2 r (colC q) := funext fun a => Fin.ext (by
    match a with
    | ⟨0, _⟩ => rfl
    | ⟨1, _⟩ => rfl)
  rw [val_main_v24_apply, val_main_v22_apply, val_main_v23_apply, val_main_v14_apply, val_main_v13_apply, val_main_cst_0_apply,
    val_main_v12_apply, val_main_v11_apply, val_main_cst_apply, val_main_v10_apply, val_main_v9_apply, val_main_v6_apply,
    val_main_v20_apply, val_main_v19_apply, val_main_cst_2_apply, val_main_v18_apply, val_main_v17_apply, val_main_cst_1_apply,
    val_main_v16_apply, val_main_v15_apply, val_main_v5_apply, val_main_v21_apply, val_main_v7_apply, e5, e6, e7,
    gate_apply, gate_apply, gate_apply]
  exact congrArg₂ (· + ·)
    (congrArg (· * x2 (ix2 r q)) (logistic_expanded _ ofBits_one _))
    (congrArg (· * Ideal.tanh (gates x0 x1 x3 x4 r (colC q))) (logistic_expanded _ ofBits_one _))

/-- THE REFERENCE'S FIRST RESULT, the new hidden state. -/
theorem new_h_eq (x0 x1 x2 : SBU.Idx → EReal) (x3 : SW.Idx → EReal) (x4 : SBias.Idx → EReal) :
    val_main_v32 (F := Ideal) x0 x1 x2 x3 x4 = outH x0 x1 x2 x3 x4 := by
  funext i
  obtain ⟨r, q, rfl⟩ : ∃ (r : Fin 16384) (q : Fin 512), i = ix2 r q := ⟨i 0, i 1, eq_ix2 i⟩
  have e8 : idx_main_v8 (ix2 r q) = ix2 r (colO q) := funext fun a => Fin.ext (by
    match a with
    | ⟨0, _⟩ => rfl
    | ⟨1, _⟩ => rfl)
  rw [val_main_v32_apply, val_main_v31_apply, val_main_v30_apply, val_main_v29_apply, val_main_cst_4_apply,
    val_main_v28_apply, val_main_v27_apply, val_main_cst_3_apply, val_main_v26_apply, val_main_v25_apply, val_main_v8_apply,
    e8, gate_apply, new_c_eq]
  exact congrArg (· * Ideal.tanh (outC x0 x1 x2 x3 x4 (ix2 r q))) (logistic_expanded _ ofBits_one _)

end Cert.LstmCell.Reference

end
-- ==== Proof.KernelPayload.lean ====
/-
  The kernel body's arithmetic at an index, at the exact instance.

  The body first fills a 1024 × 2048 scratch with the gate pre-activations of its 1024 batch rows — a 1024 × 512 by
  512 × 2048 product of the input block with the weights' upper half, plus the same product of the previous hidden
  state's block with the lower half, plus the bias row broadcast down the rows — and then, 512 rows at a time, reads
  the four 512-column gate slices of those rows and forms the new cell state and the new hidden state elementwise,
  the logistic function written as 1/2 · tanh (z / 2) + 1/2.
  Here each of those payloads is read at explicit coordinates: a matrix product into a zero accumulator is the plain
  sum of products over the contracted axis, a change of float format is the identity, a slice shifts the column, the
  broadcast bias row reads its column, and the tanh form of the logistic function is the logistic function.
-/
import proofs.«103331_j47863115547325_2_alg».proof.Proof.RefValue
import proofs.«103331_j47863115547325_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.LstmCell.Kernel

open Cert.KernelIdeal Cert.KernelIdeal.Gen Cert.LstmCell
open Idealize.ShloMosaic Idealize.ShloMosaic.ValueIdx
open scoped BigOperators

/-! ## The matrix product's index maps, coordinate by coordinate -/

theorem lhs_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The body's 1024 × 512 by 512 × 2048 product into a zero accumulator, at row `p` and column `j`: the sum over the
    512 contracted places of the products. -/
theorem matmul_zero_apply (l : FVec Ideal S1024x512 .bf16) (r : FVec Ideal S512x2048 .bf16) (p : Fin 1024) (j : Fin 2048) :
    matmul dot_S1024x512_S512x2048_S1024x2048_1_0_0_1_n_n none l r (constant (F := Ideal) S1024x2048 .f32 0x00000000#32) (ix2 p j)
      = ∑ k : Fin 512, l (ix2 p k) * r (ix2 k j) := by
  refine (Ideal.matmul_constant_zero_apply dot_S1024x512_S512x2048_S1024x2048_1_0_0_1_n_n none l r (ix2 p j)).trans ?_
  rw [← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p j) ((contrEquiv1 dot_S1024x512_S512x2048_S1024x2048_1_0_0_1_n_n 512 rfl rfl).symm k) = ix2 p k := funext fun a => Fin.ext (by
    match a with
    | ⟨0, _⟩ => exact lhs_0 _ _
    | ⟨1, _⟩ => exact (lhs_1 _ _).trans hk)
  have er : dot_S1024x512_S512x2048_S1024x2048_1_0_0_1_n_n.rhsIdx (ix2 p j) ((contrEquiv1 dot_S1024x512_S512x2048_S1024x2048_1_0_0_1_n_n 512 rfl rfl).symm k) = ix2 k j := funext fun a => Fin.ext (by
    match a with
    | ⟨0, _⟩ => exact (rhs_0 _ _).trans hk
    | ⟨1, _⟩ => exact rhs_1 _ _)
  rw [el, er]

/-! ## The gate scratch -/

/-- First store: the input block times the weights' upper half. -/
theorem pay1_apply (v0 : Vec Ideal S1024x512 .f32) (v4 : Vec Ideal S512x2048 .bf16) (p : Fin 1024) (j : Fin 2048) :
    k0_pay1 v0 v4 (ix2 p j) = ∑ k : Fin 512, v0 (ix2 p k) * v4 (ix2 k j) := by
  unfold k0_pay1
  rw [shapeCast_self, shapeCast_self]
  exact matmul_zero_apply (truncf .bf16 v0 bitsLt_bf16_f32) v4 p j

/-- Second store: what the scratch held plus the previous hidden state's block times the weights' lower half. -/
theorem pay2_apply (v2 : Vec Ideal S1024x512 .f32) (v6 : Vec Ideal S512x2048 .bf16) (v12 : Vec Ideal S1024x2048 .f32)
    (p : Fin 1024) (j : Fin 2048) :
    k0_pay2 v2 v6 v12 (ix2 p j) = v12 (ix2 p j) + ∑ k : Fin 512, v2 (ix2 p k) * v6 (ix2 k j) := by
  unfold k0_pay2
  rw [shapeCast_self, shapeCast_self]
  exact congrArg (v12 (ix2 p j) + ·) (matmul_zero_apply (truncf .bf16 v2 bitsLt_bf16_f32) v6 p j)

/-- Third store: what the scratch held plus the bias row, the same for every row. -/
theorem pay3_apply (v18 : Vec Ideal S1024x2048 .f32) (v19 : Vec Ideal S1x2048 .f32) (p : Fin 1024) (j : Fin 2048) :
    k0_pay3 v18 v19 (ix2 p j) = v18 (ix2 p j) + v19 (ix2 (0 : Fin 1) j) := by
  unfold k0_pay3
  rw [shapeCast_self, shapeCast_self]
  refine congrArg (v18 (ix2 p j) + ·) ?_
  exact broadcastTo_apply v19 broadcasts_S1x2048_S1024x2048 (ix2 p j) (ix2 (0 : Fin 1) j) (fun a => match a with
    | ⟨0, _⟩ => by show 0 = if (1 : Nat) = 1 then 0 else p.val; rw [if_pos rfl]
    | ⟨1, _⟩ => by show j.val = if (2048 : Nat) = 1 then 0 else j.val; rw [if_neg (by decide)])

/-! ## The cell, 512 rows at a time -/

/-- A 512-column slice of the 512 × 2048 gate rows, at row `p` and column `q`, reads column `off + q`. -/
theorem slice_apply (off : Nat) (h : S512x2048.Slices ![0, off] S512x512) (g : Vec Ideal S512x2048 .f32)
    (p q : Fin 512) (j : Fin 2048) (hj : j.val = off + q.val) :
    extractStridedSlice S512x512 ![0, off] g h (ix2 p q) = g (ix2 p j) :=
  extractStridedSlice_apply ![0, off] g h (ix2 p q) (ix2 p j) (fun a => match a with
    | ⟨0, _⟩ => by show p.val = 0 + p.val; omega
    | ⟨1, _⟩ => by show j.val = off + q.val; exact hj)

/-- The new cell state with the logistic function in its tanh form, for any spelling `c` of one half. -/
theorem cellC_tanh_form (c : EReal) (hc : c = ((1 / 2 : ℝ) : EReal)) (zi zf zc cp : EReal) :
    (c * Ideal.tanh (c * zf) + c) * cp + (c * Ideal.tanh (c * zi) + c) * Ideal.tanh zc
      = Ideal.logistic zf * cp + Ideal.logistic zi * Ideal.tanh zc := by
  subst hc; rw [logistic_eq_tanh, logistic_eq_tanh]

/-- The new hidden state likewise, over the new cell state `cn`. -/
theorem cellH_tanh_form (c : EReal) (hc : c = ((1 / 2 : ℝ) : EReal)) (zo cn : EReal) :
    (c * Ideal.tanh (c * zo) + c) * Ideal.tanh cn = Ideal.logistic zo * Ideal.tanh cn := by
  subst hc; rw [logistic_eq_tanh]

/-- The payload stored into the new cell state's block, over the four gate slices. -/
theorem pay4_eq (v30 : Vec Ideal S512x2048 .f32) (v58 : Vec Ideal S512x512 .f32) (i : S512x512.Idx) :
    k0_pay4 v30 v58 i
      = Ideal.logistic (extractStridedSlice S512x512 ![0, 512] v30 slices_S512x2048_o0_512_S512x512 i) * v58 i
        + Ideal.logistic (extractStridedSlice S512x512 ![0, 0] v30 slices_S512x2048_o0_0_S512x512 i)
          * Ideal.tanh (extractStridedSlice S512x512 ![0, 1024] v30 slices_S512x2048_o0_1024_S512x512 i) := by
  unfold k0_pay4
  exact cellC_tanh_form (Ideal.ofBits .f32 0x3F000000#32) ofBits_half _ _ _ _

/-- … at row `p` and unit `q`: the new cell state from that row's gates and the previous cell state. -/
theorem pay4_apply (v30 : Vec Ideal S512x2048 .f32) (v58 : Vec Ideal S512x512 .f32) (p q : Fin 512) :
    k0_pay4 v30 v58 (ix2 p q) = cellC (fun j => v30 (ix2 p j)) (v58 (ix2 p q)) q := by
  rw [pay4_eq]
  unfold cellC
  rw [slice_apply 512 _ v30 p q (colF q) rfl, slice_apply 0 _ v30 p q (colI q) (by show q.val = 0 + q.val; omega),
    slice_apply 1024 _ v30 p q (colC q) rfl]

/-- The payload stored into the new hidden state's block. -/
theorem pay5_eq (v30 : Vec Ideal S512x2048 .f32) (v58 : Vec Ideal S512x512 .f32) (i : S512x512.Idx) :
    k0_pay5 v30 v58 i
      = Ideal.logistic (extractStridedSlice S512x512 ![0, 1536] v30 slices_S512x2048_o0_1536_S512x512 i)
        * Ideal.tanh (k0_pay4 v30 v58 i) := by
  unfold k0_pay5
  exact cellH_tanh_form (Ideal.ofBits .f32 0x3F000000#32) ofBits_half _ _

theorem pay5_apply (v30 : Vec Ideal S512x2048 .f32) (v58 : Vec Ideal S512x512 .f32) (p q : Fin 512) :
    k0_pay5 v30 v58 (ix2 p q) = cellH (fun j => v30 (ix2 p j)) (v58 (ix2 p q)) q := by
  rw [pay5_eq, pay4_apply]
  unfold cellH
  rw [slice_apply 1536 _ v30 p q (colO q) rfl]

end Cert.LstmCell.Kernel

end
-- ==== Proof.KernelBlock.lean ====
/-
  What the kernel body leaves in its two output blocks, as functions of its five input blocks.

  At a grid point the body holds 1024 batch rows: blocks `x0`, `x1`, `x2` of the input, the previous hidden state and
  the previous cell state, the whole weight matrix `x3` and the bias row `x4`. It fills its scratch with those rows'
  gate pre-activations (three whole-buffer stores, each reading the one before back: a last whole-buffer store is what
  the buffer then holds), and a counted loop of two trips then writes rows 512·k … 512·k + 511 of both output blocks
  from rows 512·k … of the scratch and of `x2`. Every store of the loop is therefore a tile of ONE function of the
  block's index — row `p`, unit `q` ↦ the cell's result from row `p`'s gates and `x2 p q` — whichever trip made it: that is
  proved once for a symbolic trip and carried along the list of the trips' stores by induction on its length; the
  stores cover the block, so the block holds that function.
-/
import proofs.«103331_j47863115547325_2_alg».proof.Proof.KernelPayload
import proofs.«103331_j47863115547325_2_alg».proof.Proof.Gen.KernelIdeal.Value
import Idealize.ShloMosaic.Lib.Pipeline.Value
import Idealize.ShloMosaic.Lib.Tactic

noncomputable section

namespace Cert.LstmCell.Kernel

open Cert.KernelIdeal Cert.KernelIdeal.Gen Cert.LstmCell
open Idealize.ShloMosaic Idealize.ShloMosaic.ValueIdx Idealize.ShloMosaic.TcCoe Idealize.SL.Sem Idealize.ShloMosaic.Tactic
open scoped BigOperators

theorem zero_offsets : (![0, 0] : Fin 2 → Nat) = fun _ => 0 := funext fun a => by fin_cases a <;> rfl

/-! ## Whole-buffer stores -/

/-- A load of the whole buffer after stores the last of which was a whole-buffer store reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon', View.canon_cons_unit_zero h]
  exact View.ld_unit_zero h inb w

/-! ## The block's rows, 512 at a time -/

section Trips
variable (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x2048 .f32) (harg8 : arg8.IsWhole)
variable (X3 : BufTy.Contents (Elt Ideal) arg3.view.ty) (X8 : BufTy.Contents (Elt Ideal) arg8.view.ty)

/-- Trip `k`'s one store into the hidden-state block: rows 512·k … of the payload over the scratch's and the previous
    cell state's same rows. -/
theorem trip_store_h (k : Fin k0_t1_loop.trips) :
    (trip_k0_t1 (F := Ideal) Variants.none c none i arg1 harg1 arg2 harg2 arg3 harg3 arg4 harg4 arg5 harg5 arg6 harg6 arg7 harg7 arg8 harg8 X3 X8 k).1
      = [⟨Rect.unit (s := S1024x512) (k0_off2 k) S512x512.size (k0_off2_inb k),
          k0_pay5 (F := Ideal) (View.readAt (Elt Ideal) arg8.view (Rect.unit (s := S1024x2048) (k0_off1 k) S512x2048.size (k0_off1_inb k)).toLoadRect X8)
            (View.readAt (Elt Ideal) arg3.view (Rect.unit (s := S1024x512) (k0_off2 k) S512x512.size (k0_off2_inb k)).toLoadRect X3)⟩] := by
  unfold trip_k0_t1; rfl

/-- … and into the cell-state block. -/
theorem trip_store_c (k : Fin k0_t1_loop.trips) :
    (trip_k0_t1 (F := Ideal) Variants.none c none i arg1 harg1 arg2 harg2 arg3 harg3 arg4 harg4 arg5 harg5 arg6 harg6 arg7 harg7 arg8 harg8 X3 X8 k).2.1
      = [⟨Rect.unit (s := S1024x512) (k0_off2 k) S512x512.size (k0_off2_inb k),
          k0_pay4 (F := Ideal) (View.readAt (Elt Ideal) arg8.view (Rect.unit (s := S1024x2048) (k0_off1 k) S512x2048.size (k0_off1_inb k)).toLoadRect X8)
            (View.readAt (Elt Ideal) arg3.view (Rect.unit (s := S1024x512) (k0_off2 k) S512x512.size (k0_off2_inb k)).toLoadRect X3)⟩] := by
  unfold trip_k0_t1; rfl

/-! ## Every store of the loop is a tile of one function of the block's index -/

/-- Both rectangles of trip `k` start at the same row, and at column 0. -/
theorem off_rows (k : Fin k0_t1_loop.trips) : (k0_off1 k) 0 = (k0_off2 k) 0 := by rw [k0_off1_eq, k0_off2_eq]
theorem off1_col (k : Fin k0_t1_loop.trips) : (k0_off1 k) 1 = 0 := by rw [k0_off1_eq]; rfl
theorem off2_col (k : Fin k0_t1_loop.trips) : (k0_off2 k) 1 = 0 := by rw [k0_off2_eq]; rfl

/-- The rows of a 1024-row block under a cell function `cell` (the new hidden state, or the new cell state). -/
def rowsOf (cell : (Fin 2048 → EReal) → EReal → Fin 512 → EReal) (S8 : Vec Ideal S1024x2048 .f32) (S3 : Vec Ideal S1024x512 .f32) :
    Vec Ideal S1024x512 .f32 :=
  fun y => cell (fun j => S8 (ix2 (y 0) j)) (S3 y) (y 1)

/-- A payload that at row `p`, unit `q` of its 512 rows is `cell` of that row's gates, applied to trip `k`'s rows of the
    scratch `S8` and of the previous cell state `S3`, is trip `k`'s tile of `rowsOf cell S8 S3`. -/
theorem tile_rows (cell : (Fin 2048 → EReal) → EReal → Fin 512 → EReal)
    (pay : Vec Ideal S512x2048 .f32 → Vec Ideal S512x512 .f32 → FVec Ideal S512x512 .f32)
    (hpay : ∀ (v30 : Vec Ideal S512x2048 .f32) (v58 : Vec Ideal S512x512 .f32) (p q : Fin 512),
      pay v30 v58 (ix2 p q) = cell (fun j => v30 (ix2 p j)) (v58 (ix2 p q)) q)
    (S8 : Vec Ideal S1024x2048 .f32) (S3 : Vec Ideal S1024x512 .f32) (k : Fin k0_t1_loop.trips) (x : S512x512.Idx) :
    pay (View.ld S8 (Rect.unit (s := S1024x2048) (k0_off1 k) S512x2048.size (k0_off1_inb k)))
        (View.ld S3 (Rect.unit (s := S1024x512) (k0_off2 k) S512x512.size (k0_off2_inb k))) x
      = rowsOf cell S8 S3 ((Rect.unit (s := S1024x512) (k0_off2 k) S512x512.size (k0_off2_inb k)).emb x) := by
  obtain ⟨p, q, rfl⟩ : ∃ (p q : Fin 512), x = ix2 p q := ⟨x 0, x 1, eq_ix2 x⟩
  rw [hpay]
  have h0 := off_rows k
  have h1 := off1_col k
  have h2 := off2_col k
  unfold rowsOf
  have e1 : (fun j : Fin 2048 => View.ld S8 (Rect.unit (s := S1024x2048) (k0_off1 k) S512x2048.size (k0_off1_inb k)) (ix2 p j))
      = fun j => S8 (ix2 (((Rect.unit (s := S1024x512) (k0_off2 k) S512x512.size (k0_off2_inb k)).emb (ix2 p q)) 0) j) :=
    funext fun j => congrArg S8 (funext fun a => Fin.ext (by
      match a with
      | ⟨0, _⟩ => show (k0_off1 k) 0 + 1 * p.val = (k0_off2 k) 0 + 1 * p.val; omega
      | ⟨1, _⟩ => show (k0_off1 k) 1 + 1 * j.val = j.val; omega))
  have e3 : q = ((Rect.unit (s := S1024x512) (k0_off2 k) S512x512.size (k0_off2_inb k)).emb (ix2 p q)) 1 :=
    Fin.ext (show q.val = (k0_off2 k) 1 + 1 * q.val by omega)
  exact congrArg₂ (fun f t => cell f (S3 ((Rect.unit (s := S1024x512) (k0_off2 k) S512x512.size (k0_off2_inb k)).emb (ix2 p q))) t) e1 e3

/-- Every store the trips before `n` made into the hidden-state block is a tile of the new hidden state of the block's
    rows: by induction on `n`, the last trip's store by `tile_rows`. -/
theorem stores_h_tiles : ∀ n : ℕ, ∀ p ∈ (pb_k0_t1 (F := Ideal) Variants.none c none i arg1 harg1 arg2 harg2 arg3 harg3 arg4 harg4 arg5 harg5 arg6 harg6 arg7 harg7 arg8 harg8 X3 X8 n).1,
    ∀ x : p.1.shape.Idx, p.2 x = rowsOf cellH (arg8.view.read (Elt Ideal) X8) (arg3.view.read (Elt Ideal) X3) (p.1.emb x)
  | 0 => by
    rw [pb_k0_t1.eq_1]; intro p hp; exact absurd hp List.not_mem_nil
  | n + 1 => by
    rw [pb_k0_t1.eq_2]; unfold pb_k0_t1Step
    split
    · next h =>
      intro p hp
      rcases List.mem_append.mp hp with hp | hp
      · replace hp : p ∈ (trip_k0_t1 (F := Ideal) Variants.none c none i arg1 harg1 arg2 harg2 arg3 harg3 arg4 harg4 arg5 harg5 arg6 harg6 arg7 harg7 arg8 harg8 X3 X8 ⟨n, h⟩).1 := hp
        rw [trip_store_h] at hp
        obtain rfl := List.mem_singleton.mp hp
        intro x
        exact tile_rows cellH k0_pay5 pay5_apply _ _ ⟨n, h⟩ x
      · exact stores_h_tiles n p hp
    · exact stores_h_tiles n

/-- The same for the cell-state block. -/
theorem stores_c_tiles : ∀ n : ℕ, ∀ p ∈ (pb_k0_t1 (F := Ideal) Variants.none c none i arg1 harg1 arg2 harg2 arg3 harg3 arg4 harg4 arg5 harg5 arg6 harg6 arg7 harg7 arg8 harg8 X3 X8 n).2,
    ∀ x : p.1.shape.Idx, p.2 x = rowsOf cellC (arg8.view.read (Elt Ideal) X8) (arg3.view.read (Elt Ideal) X3) (p.1.emb x)
  | 0 => by
    rw [pb_k0_t1.eq_1]; intro p hp; exact absurd hp List.not_mem_nil
  | n + 1 => by
    rw [pb_k0_t1.eq_2]; unfold pb_k0_t1Step
    split
    · next h =>
      intro p hp
      rcases List.mem_append.mp hp with hp | hp
      · replace hp : p ∈ (trip_k0_t1 (F := Ideal) Variants.none c none i arg1 harg1 arg2 harg2 arg3 harg3 arg4 harg4 arg5 harg5 arg6 harg6 arg7 harg7 arg8 harg8 X3 X8 ⟨n, h⟩).2.1 := hp
        rw [trip_store_c] at hp
        obtain rfl := List.mem_singleton.mp hp
        intro x
        exact tile_rows cellC k0_pay4 pay4_apply _ _ ⟨n, h⟩ x
      · exact stores_c_tiles n p hp
    · exact stores_c_tiles n

/-! ## The scratch, and the two output blocks -/

/-- Row `p`'s gates from the point's five input blocks. -/
abbrev blkGates (x0 x1 : Vec Ideal S1024x512 .f32) (x3 : Vec Ideal S1024x2048 .bf16) (x4 : Vec Ideal S1x2048 .f32)
    (p : Fin 1024) : Fin 2048 → EReal :=
  gateRow (fun k => x0 (ix2 p k)) (fun k => x1 (ix2 p k)) (fun k j => x3 (ix2 k j)) (fun j => x4 (ix2 (0 : Fin 1) j))

/-- What the scratch holds after the body's three whole-buffer stores: the first product, plus the second, plus the
    bias row. -/
def scratchOf (x0 x1 : Vec Ideal S1024x512 .f32) (x3 : Vec Ideal S1024x2048 .bf16) (x4 : Vec Ideal S1x2048 .f32) :
    Vec Ideal S1024x2048 .f32 :=
  k0_pay3 (F := Ideal)
    (k0_pay2 (F := Ideal) x1 (View.ld x3 (Rect.unit (s := S1024x2048) ![512, 0] S512x2048.size inb_S1024x2048_S512x2048_512_0))
      (k0_pay1 (F := Ideal) x0 (View.ld x3 (Rect.unit (s := S1024x2048) ![0, 0] S512x2048.size inb_S1024x2048_S512x2048_0_0))))
    x4

/-- At row `p`, column `j` it is that row's gate `j`: the weights' upper half is rows 0 … 511 of the weight block, the
    lower half rows 512 … 1023. -/
theorem scratchOf_apply (x0 x1 : Vec Ideal S1024x512 .f32) (x3 : Vec Ideal S1024x2048 .bf16) (x4 : Vec Ideal S1x2048 .f32)
    (p : Fin 1024) (j : Fin 2048) : scratchOf x0 x1 x3 x4 (ix2 p j) = blkGates x0 x1 x3 x4 p j := by
  unfold scratchOf
  rw [pay3_apply, pay2_apply, pay1_apply]
  unfold blkGates gateRow
  have eLo : ∀ k : Fin 512, View.ld x3 (Rect.unit (s := S1024x2048) ![0, 0] S512x2048.size inb_S1024x2048_S512x2048_0_0) (ix2 k j)
      = x3 (ix2 (rowLo k) j) := fun k => congrArg x3 (funext fun a => Fin.ext (by
    match a with
    | ⟨0, _⟩ => show 0 + 1 * k.val = k.val; omega
    | ⟨1, _⟩ => show 0 + 1 * j.val = j.val; omega))
  have eHi : ∀ k : Fin 512, View.ld x3 (Rect.unit (s := S1024x2048) ![512, 0] S512x2048.size inb_S1024x2048_S512x2048_512_0) (ix2 k j)
      = x3 (ix2 (rowHi k) j) := fun k => congrArg x3 (funext fun a => Fin.ext (by
    match a with
    | ⟨0, _⟩ => show 512 + 1 * k.val = 512 + k.val; omega
    | ⟨1, _⟩ => show 0 + 1 * j.val = j.val; omega))
  simp only [eLo, eHi]

/-- THE HIDDEN-STATE BLOCK after the body: the new hidden state of its 1024 rows, from the scratch of their gates and
    the block `x2` of their previous cell states. -/
theorem out_h_eq (x0 : Vec Ideal S1024x512 .f32) (x1 : Vec Ideal S1024x512 .f32) (x2 : Vec Ideal S1024x512 .f32) (x3 : Vec Ideal S1024x2048 .bf16) (x4 : Vec Ideal S1x2048 .f32) :
    out0_A_5 (F := Ideal) c i arg1 harg1 arg2 harg2 arg3 harg3 arg4 harg4 arg5 harg5 arg6 harg6 arg7 harg7 arg8 harg8 x0 x1 x2 x3 x4 = rowsOf cellH (scratchOf x0 x1 x3 x4) x2 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  funext y
  have hcov := cover0_A_5 c i arg1 harg1 arg2 harg2 arg3 harg3 arg4 harg4 arg5 harg5 arg6 harg6 arg7 harg7 arg8 harg8 x0 x1 x2 x3 x4 y
  revert hcov
  unfold kernelRun0_A
  dsimp only
  sl_unfold_words
  intro hcov
  refine (View.canon_apply_of_pieces _ _ (stores_h_tiles c i arg1 harg1 arg2 harg2 arg3 harg3 arg4 harg4 arg5 harg5 arg6 harg6 arg7 harg7 arg8 harg8 _ _ _) y hcov).trans ?_
  have e3 : View.read (Elt Ideal) arg3.view (harg3.unread x2) = x2 := harg3.read_unread x2
  have r1 : View.readAt (Elt Ideal) arg1.view (Rect.unit (s := S1024x512) ![0, 0] S1024x512.size inb_S1024x512_S1024x512_0_0).toLoadRect (harg1.unread x0) = x0 := by
    rw [View.readAt_eq_ld, harg1.read_unread]; exact View.ld_unit_zero zero_offsets _ x0
  have r2 : View.readAt (Elt Ideal) arg2.view (Rect.unit (s := S1024x512) ![0, 0] S1024x512.size inb_S1024x512_S1024x512_0_0).toLoadRect (harg2.unread x1) = x1 := by
    rw [View.readAt_eq_ld, harg2.read_unread]; exact View.ld_unit_zero zero_offsets _ x1
  have r5 : View.readAt (Elt Ideal) arg5.view (Rect.unit (s := S1x2048) ![0, 0] S1x2048.size inb_S1x2048_S1x2048_0_0).toLoadRect (harg5.unread x4) = x4 := by
    rw [View.readAt_eq_ld, harg5.read_unread]; exact View.ld_unit_zero zero_offsets _ x4
  have r4lo : View.readAt (Elt Ideal) arg4.view (Rect.unit (s := S1024x2048) ![0, 0] S512x2048.size inb_S1024x2048_S512x2048_0_0).toLoadRect (harg4.unread x3)
      = View.ld x3 (Rect.unit (s := S1024x2048) ![0, 0] S512x2048.size inb_S1024x2048_S512x2048_0_0) := by
    rw [View.readAt_eq_ld, harg4.read_unread]
  have r4hi : View.readAt (Elt Ideal) arg4.view (Rect.unit (s := S1024x2048) ![512, 0] S512x2048.size inb_S1024x2048_S512x2048_512_0).toLoadRect (harg4.unread x3)
      = View.ld x3 (Rect.unit (s := S1024x2048) ![512, 0] S512x2048.size inb_S1024x2048_S512x2048_512_0) := by
    rw [View.readAt_eq_ld, harg4.read_unread]
  rw [e3, View.read_writes_junk_eq_canon, View.canon_cons_unit_zero zero_offsets,
    readCov_cons_whole (S := S1024x2048) _ zero_offsets, readCov_cons_whole (S := S1024x2048) _ zero_offsets, r1, r2, r5, r4lo, r4hi]
  rfl

/-- THE CELL-STATE BLOCK after the body. -/
theorem out_c_eq (x0 : Vec Ideal S1024x512 .f32) (x1 : Vec Ideal S1024x512 .f32) (x2 : Vec Ideal S1024x512 .f32) (x3 : Vec Ideal S1024x2048 .bf16) (x4 : Vec Ideal S1x2048 .f32) :
    out0_A_6 (F := Ideal) c i arg1 harg1 arg2 harg2 arg3 harg3 arg4 harg4 arg5 harg5 arg6 harg6 arg7 harg7 arg8 harg8 x0 x1 x2 x3 x4 = rowsOf cellC (scratchOf x0 x1 x3 x4) x2 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  funext y
  have hcov := cover0_A_6 c i arg1 harg1 arg2 harg2 arg3 harg3 arg4 harg4 arg5 harg5 arg6 harg6 arg7 harg7 arg8 harg8 x0 x1 x2 x3 x4 y
  revert hcov
  unfold kernelRun0_A
  dsimp only
  sl_unfold_words
  intro hcov
  refine (View.canon_apply_of_pieces _ _ (stores_c_tiles c i arg1 harg1 arg2 harg2 arg3 harg3 arg4 harg4 arg5 harg5 arg6 harg6 arg7 harg7 arg8 harg8 _ _ _) y hcov).trans ?_
  have e3 : View.read (Elt Ideal) arg3.view (harg3.unread x2) = x2 := harg3.read_unread x2
  have r1 : View.readAt (Elt Ideal) arg1.view (Rect.unit (s := S1024x512) ![0, 0] S1024x512.size inb_S1024x512_S1024x512_0_0).toLoadRect (harg1.unread x0) = x0 := by
    rw [View.readAt_eq_ld, harg1.read_unread]; exact View.ld_unit_zero zero_offsets _ x0
  have r2 : View.readAt (Elt Ideal) arg2.view (Rect.unit (s := S1024x512) ![0, 0] S1024x512.size inb_S1024x512_S1024x512_0_0).toLoadRect (harg2.unread x1) = x1 := by
    rw [View.readAt_eq_ld, harg2.read_unread]; exact View.ld_unit_zero zero_offsets _ x1
  have r5 : View.readAt (Elt Ideal) arg5.view (Rect.unit (s := S1x2048) ![0, 0] S1x2048.size inb_S1x2048_S1x2048_0_0).toLoadRect (harg5.unread x4) = x4 := by
    rw [View.readAt_eq_ld, harg5.read_unread]; exact View.ld_unit_zero zero_offsets _ x4
  have r4lo : View.readAt (Elt Ideal) arg4.view (Rect.unit (s := S1024x2048) ![0, 0] S512x2048.size inb_S1024x2048_S512x2048_0_0).toLoadRect (harg4.unread x3)
      = View.ld x3 (Rect.unit (s := S1024x2048) ![0, 0] S512x2048.size inb_S1024x2048_S512x2048_0_0) := by
    rw [View.readAt_eq_ld, harg4.read_unread]
  have r4hi : View.readAt (Elt Ideal) arg4.view (Rect.unit (s := S1024x2048) ![512, 0] S512x2048.size inb_S1024x2048_S512x2048_512_0).toLoadRect (harg4.unread x3)
      = View.ld x3 (Rect.unit (s := S1024x2048) ![512, 0] S512x2048.size inb_S1024x2048_S512x2048_512_0) := by
    rw [View.readAt_eq_ld, harg4.read_unread]
  rw [e3, View.read_writes_junk_eq_canon, View.canon_cons_unit_zero zero_offsets,
    readCov_cons_whole (S := S1024x2048) _ zero_offsets, readCov_cons_whole (S := S1024x2048) _ zero_offsets, r1, r2, r5, r4lo, r4hi]
  rfl

end Trips

end Cert.LstmCell.Kernel

end
-- ==== Proof.KernelArray.lean ====
/-
  From blocks to arrays: the kernel's two result arrays after its run.

  The grid has sixteen points; point `t` stages rows 1024·t … 1024·t + 1023 of the input, of the previous hidden state
  and of the previous cell state, the whole weight matrix and the bias row, and writes the same rows of both results
  back. So row `p` of every batch-blocked block at point `t` is row 1024·t + `p` of its array, and what the point writes
  back is the block of the cell's function of the whole argument arrays; the sixteen blocks cover the arrays (row `r`
  lies in the block of point `r / 1024`), so each result array is that function.
  The weights reach the kernel through a change of float format on the host, the identity at the exact instance, and
  the bias through a reshape of [2048] to [1, 2048].
-/
import proofs.«103331_j47863115547325_2_alg».proof.Proof.KernelBlock
import Idealize.ShloMosaic.Lib.StableHlo.Run

noncomputable section

namespace Cert.LstmCell.Kernel

open Cert.KernelIdeal Cert.KernelIdeal.Gen Cert.LstmCell
open Idealize.ShloMosaic Idealize.ShloMosaic.ValueIdx Idealize.ShloMosaic.TcCoe Idealize.SL.Sem Idealize.ShloMosaic.Tactic
open Idealize.ShloMosaic.Pipeline (Dat)
open scoped BigOperators

variable (m : (ℓ : Loc nD τ sig) → Buf (Elt Ideal) ℓ) (ρ : Dev nD → PrngReg)

/-! ## The two operands the host writes before the launch -/

/-- The weights the kernel stages are the argument's: the host's change of float format is the identity. -/
theorem V_weights (c : Dev nD) : (V m c main_call0_v0 : S1024x2048.Idx → EReal) = m ((c : Thread nD τ).loc main_arg3) := by
  dsimp only [Gen.V, Gen.hostOps0]; after_results; rfl

/-- The bias row the kernel stages, at column `j`, is the bias argument at `j`: the host's reshape of [2048] to [1, 2048]. -/
theorem V_bias_apply (c : Dev nD) (j : Fin 2048) :
    (V m c main_call0_v1 : S1x2048.Idx → EReal) (ix2 (0 : Fin 1) j) = m ((c : Thread nD τ).loc main_arg4) (ix1 j) := by
  have e : (V m c main_call0_v1 : S1x2048.Idx → EReal)
      = shapeCast S1x2048 (m ((c : Thread nD τ).loc main_arg4)) shapeCasts_S2048_S1x2048 := by
    dsimp only [Gen.V, Gen.hostOps0]; after_results; rfl
  rw [e]
  exact shapeCast_apply _ _ (ix2 (0 : Fin 1) j) (ix1 j) (by
    rw [Shape.rowMajor_val_one, Shape.rowMajor_val_two]; show j.val = (0 : ℕ) * 2048 + j.val; omega)

/-! ## A row of a block is a row of the arrays -/

/-- If row `p` of the point's blocks is row `R` of the arrays, the weights' block the weights and the bias row's block
    the bias, the block's value at row `p`, unit `q` is the cell's at row `R`, unit `q` of the arrays. -/
theorem rows_of_arrays (cell : (Fin 2048 → EReal) → EReal → Fin 512 → EReal)
    (b0 b1 b2 : Vec Ideal S1024x512 .f32) (b3 : Vec Ideal S1024x2048 .bf16) (b4 : Vec Ideal S1x2048 .f32)
    (A0 A1 A2 : SBU.Idx → EReal) (A3 : SW.Idx → EReal) (A4 : SBias.Idx → EReal) (p : Fin 1024) (q : Fin 512) (R : Fin 16384)
    (h0 : ∀ k : Fin 512, b0 (ix2 p k) = A0 (ix2 R k)) (h1 : ∀ k : Fin 512, b1 (ix2 p k) = A1 (ix2 R k))
    (h2 : b2 (ix2 p q) = A2 (ix2 R q))
    (h3 : ∀ (k : Fin 1024) (j : Fin 2048), b3 (ix2 k j) = A3 (ix2 k j))
    (h4 : ∀ j : Fin 2048, b4 (ix2 (0 : Fin 1) j) = A4 (ix1 j)) :
    rowsOf cell (scratchOf b0 b1 b3 b4) b2 (ix2 p q) = cell (gates A0 A1 A3 A4 R) (A2 (ix2 R q)) q := by
  show cell (fun j => scratchOf b0 b1 b3 b4 (ix2 p j)) (b2 (ix2 p q)) q = _
  have eg : (fun j => scratchOf b0 b1 b3 b4 (ix2 p j)) = gates A0 A1 A3 A4 R := funext fun j => by
    rw [scratchOf_apply]
    show gateRow _ _ _ _ j = gateRow _ _ _ _ j
    simp only [h0, h1, h3, h4]
  rw [eg, h2]

/-! ## The index maps, decided over the sixteen grid points -/

/-- The three batch-blocked inputs and both outputs move together, one block of 1024 rows per point; the weights and
    the bias stay at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0
    ∧ win0_6.index t (0 : Fin 2) = win0_5.index t (0 : Fin 2) ∧ win0_6.index t (1 : Fin 2) = 0
    ∧ win0_5.index t (0 : Fin 2) ≤ 15 :=
  (by decide +kernel : ∀ t : Fin grid0.N, _)

/-- Every block of 1024 rows is some point's, for both outputs. -/
theorem idx_onto : ∀ q0 : Fin 16, ∃ t : Fin cfg0.N, win0_5.index t = ![q0.val, 0] ∧ win0_6.index t = ![q0.val, 0] :=
  (by decide +kernel : ∀ q0 : Fin 16, ∃ t : Fin grid0.N, win0_5.index t = ![q0.val, 0] ∧ win0_6.index t = ![q0.val, 0])

/-! ## What each point writes back, the cover, and the whole arrays -/

/-- WHAT POINT `t` WRITES BACK to the hidden-state array is block `t` of the new hidden state of the argument arrays. -/
theorem flushed_h (c : Dev nD) (t : Fin cfg0.N) :
    (dats m 0 c).flushed 5 t = ((cfg0.win 5).blk t).view.read (Elt Ideal) (outH (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5_A, out_h_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)]
  obtain ⟨f0, f0', f1, f1', f2, f2', f3, f3', f4, f4', f5', f6, f6', fle⟩ := idx_facts t
  funext y
  obtain ⟨p, q, rfl⟩ : ∃ (p : Fin 1024) (q : Fin 512), y = ix2 p q := ⟨y 0, y 1, eq_ix2 y⟩
  have hR : win0_5.index t (0 : Fin 2) * 1024 + p.val < 16384 := by have := p.isLt; omega
  show rowsOf cellH (scratchOf (iblk m c 0 t) (iblk m c 1 t) (iblk m c 3 t) (iblk m c 4 t)) (iblk m c 2 t) (ix2 p q)
    = outH (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p q))
  have e : ((cfg0.win 5).blk t).view.emb (ix2 p q) = ix2 (⟨win0_5.index t (0 : Fin 2) * 1024 + p.val, hR⟩ : Fin 16384) q :=
    funext fun a => Fin.ext (by
      match a with
      | ⟨0, _⟩ => show win0_5.index t (0 : Fin 2) * 1024 + 1 * p.val = win0_5.index t (0 : Fin 2) * 1024 + p.val; omega
      | ⟨1, _⟩ => show win0_5.index t (1 : Fin 2) * 512 + 1 * q.val = q.val; omega)
  rw [e]
  refine rows_of_arrays cellH (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4)) p q ⟨win0_5.index t (0 : Fin 2) * 1024 + p.val, hR⟩ ?_ ?_ ?_ ?_ ?_
  · intro k
    show V m c main_arg0 (((cfg0.win 0).blk t).view.emb (ix2 p k)) = _
    rw [V_main_arg0]
    exact congrArg (m ((c : Thread nD τ).loc main_arg0)) (funext fun a => Fin.ext (by
      match a with
      | ⟨0, _⟩ => show win0_0.index t (0 : Fin 2) * 1024 + 1 * p.val = win0_5.index t (0 : Fin 2) * 1024 + p.val; omega
      | ⟨1, _⟩ => show win0_0.index t (1 : Fin 2) * 512 + 1 * k.val = k.val; omega))
  · intro k
    show V m c main_arg1 (((cfg0.win 1).blk t).view.emb (ix2 p k)) = _
    rw [V_main_arg1]
    exact congrArg (m ((c : Thread nD τ).loc main_arg1)) (funext fun a => Fin.ext (by
      match a with
      | ⟨0, _⟩ => show win0_1.index t (0 : Fin 2) * 1024 + 1 * p.val = win0_5.index t (0 : Fin 2) * 1024 + p.val; omega
      | ⟨1, _⟩ => show win0_1.index t (1 : Fin 2) * 512 + 1 * k.val = k.val; omega))
  · show V m c main_arg2 (((cfg0.win 2).blk t).view.emb (ix2 p q)) = _
    rw [V_main_arg2]
    exact congrArg (m ((c : Thread nD τ).loc main_arg2)) (funext fun a => Fin.ext (by
      match a with
      | ⟨0, _⟩ => show win0_2.index t (0 : Fin 2) * 1024 + 1 * p.val = win0_5.index t (0 : Fin 2) * 1024 + p.val; omega
      | ⟨1, _⟩ => show win0_2.index t (1 : Fin 2) * 512 + 1 * q.val = q.val; omega))
  · intro k j
    show V m c main_call0_v0 (((cfg0.win 3).blk t).view.emb (ix2 k j)) = _
    rw [V_weights]
    exact congrArg (m ((c : Thread nD τ).loc main_arg3)) (funext fun a => Fin.ext (by
      match a with
      | ⟨0, _⟩ => show win0_3.index t (0 : Fin 2) * 1024 + 1 * k.val = k.val; omega
      | ⟨1, _⟩ => show win0_3.index t (1 : Fin 2) * 2048 + 1 * j.val = j.val; omega))
  · intro j
    show V m c main_call0_v1 (((cfg0.win 4).blk t).view.emb (ix2 (0 : Fin 1) j)) = _
    have e4 : ((cfg0.win 4).blk t).view.emb (ix2 (0 : Fin 1) j) = ix2 (0 : Fin 1) j := funext fun a => Fin.ext (by
      match a with
      | ⟨0, _⟩ => show win0_4.index t (0 : Fin 2) * 1 + 1 * 0 = 0; omega
      | ⟨1, _⟩ => show win0_4.index t (1 : Fin 2) * 2048 + 1 * j.val = j.val; omega)
    rw [e4]
    exact V_bias_apply m c j

/-- … and to the cell-state array, block `t` of the new cell state. -/
theorem flushed_c (c : Dev nD) (t : Fin cfg0.N) :
    (dats m 0 c).flushed 6 t = ((cfg0.win 6).blk t).view.read (Elt Ideal) (outC (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed6_A, out_c_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)]
  obtain ⟨f0, f0', f1, f1', f2, f2', f3, f3', f4, f4', f5', f6, f6', fle⟩ := idx_facts t
  funext y
  obtain ⟨p, q, rfl⟩ : ∃ (p : Fin 1024) (q : Fin 512), y = ix2 p q := ⟨y 0, y 1, eq_ix2 y⟩
  have hR : win0_5.index t (0 : Fin 2) * 1024 + p.val < 16384 := by have := p.isLt; omega
  show rowsOf cellC (scratchOf (iblk m c 0 t) (iblk m c 1 t) (iblk m c 3 t) (iblk m c 4 t)) (iblk m c 2 t) (ix2 p q)
    = outC (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb (ix2 p q))
  have e : ((cfg0.win 6).blk t).view.emb (ix2 p q) = ix2 (⟨win0_5.index t (0 : Fin 2) * 1024 + p.val, hR⟩ : Fin 16384) q :=
    funext fun a => Fin.ext (by
      match a with
      | ⟨0, _⟩ => show win0_6.index t (0 : Fin 2) * 1024 + 1 * p.val = win0_5.index t (0 : Fin 2) * 1024 + p.val; omega
      | ⟨1, _⟩ => show win0_6.index t (1 : Fin 2) * 512 + 1 * q.val = q.val; omega)
  rw [e]
  refine rows_of_arrays cellC (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4)) p q ⟨win0_5.index t (0 : Fin 2) * 1024 + p.val, hR⟩ ?_ ?_ ?_ ?_ ?_
  · intro k
    show V m c main_arg0 (((cfg0.win 0).blk t).view.emb (ix2 p k)) = _
    rw [V_main_arg0]
    exact congrArg (m ((c : Thread nD τ).loc main_arg0)) (funext fun a => Fin.ext (by
      match a with
      | ⟨0, _⟩ => show win0_0.index t (0 : Fin 2) * 1024 + 1 * p.val = win0_5.index t (0 : Fin 2) * 1024 + p.val; omega
      | ⟨1, _⟩ => show win0_0.index t (1 : Fin 2) * 512 + 1 * k.val = k.val; omega))
  · intro k
    show V m c main_arg1 (((cfg0.win 1).blk t).view.emb (ix2 p k)) = _
    rw [V_main_arg1]
    exact congrArg (m ((c : Thread nD τ).loc main_arg1)) (funext fun a => Fin.ext (by
      match a with
      | ⟨0, _⟩ => show win0_1.index t (0 : Fin 2) * 1024 + 1 * p.val = win0_5.index t (0 : Fin 2) * 1024 + p.val; omega
      | ⟨1, _⟩ => show win0_1.index t (1 : Fin 2) * 512 + 1 * k.val = k.val; omega))
  · show V m c main_arg2 (((cfg0.win 2).blk t).view.emb (ix2 p q)) = _
    rw [V_main_arg2]
    exact congrArg (m ((c : Thread nD τ).loc main_arg2)) (funext fun a => Fin.ext (by
      match a with
      | ⟨0, _⟩ => show win0_2.index t (0 : Fin 2) * 1024 + 1 * p.val = win0_5.index t (0 : Fin 2) * 1024 + p.val; omega
      | ⟨1, _⟩ => show win0_2.index t (1 : Fin 2) * 512 + 1 * q.val = q.val; omega))
  · intro k j
    show V m c main_call0_v0 (((cfg0.win 3).blk t).view.emb (ix2 k j)) = _
    rw [V_weights]
    exact congrArg (m ((c : Thread nD τ).loc main_arg3)) (funext fun a => Fin.ext (by
      match a with
      | ⟨0, _⟩ => show win0_3.index t (0 : Fin 2) * 1024 + 1 * k.val = k.val; omega
      | ⟨1, _⟩ => show win0_3.index t (1 : Fin 2) * 2048 + 1 * j.val = j.val; omega))
  · intro j
    show V m c main_call0_v1 (((cfg0.win 4).blk t).view.emb (ix2 (0 : Fin 1) j)) = _
    have e4 : ((cfg0.win 4).blk t).view.emb (ix2 (0 : Fin 1) j) = ix2 (0 : Fin 1) j := funext fun a => Fin.ext (by
      match a with
      | ⟨0, _⟩ => show win0_4.index t (0 : Fin 2) * 1 + 1 * 0 = 0; omega
      | ⟨1, _⟩ => show win0_4.index t (1 : Fin 2) * 2048 + 1 * j.val = j.val; omega)
    rw [e4]
    exact V_bias_apply m c j

/-- An index is in point `t`'s block iff each coordinate is in the block's range. -/
theorem mem_blk_5 (t : Fin cfg0.N) (i : S16384x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v0_0).slice (win0_5.rect t)).set ↔ _
  rw [View.set_slice_whole, Rect.mem_set_unit]
  exact Iff.rfl

theorem covered_5 (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  obtain ⟨t, ht5, ht6⟩ := idx_onto ⟨(i 0).val / 1024, by omega⟩
  have q0 : win0_5.index t (0 : Fin 2) = (i 0).val / 1024 := congrFun ht5 0
  have q1 : win0_5.index t (1 : Fin 2) = 0 := congrFun ht5 1
  refine ⟨t, flush0_5 t, ?_⟩
  rw [mem_blk_5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

theorem mem_blk_6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v0_1).slice (win0_6.rect t)).set ↔ _
  rw [View.set_slice_whole, Rect.mem_set_unit]
  exact Iff.rfl

theorem covered_6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  obtain ⟨t, ht5, ht6⟩ := idx_onto ⟨(i 0).val / 1024, by omega⟩
  have q0 : win0_6.index t (0 : Fin 2) = (i 0).val / 1024 := congrFun ht6 0
  have q1 : win0_6.index t (1 : Fin 2) = 0 := congrFun ht6 1
  refine ⟨t, flush0_6 t, ?_⟩
  rw [mem_blk_6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- THE HIDDEN-STATE ARRAY after the run. -/
theorem final_h (c : Dev nD) : (dats m 0 c).arrAt 5 cfg0.N = outH (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_h m c t) covered_5

/-- THE CELL-STATE ARRAY after the run. -/
theorem final_c (c : Dev nD) : (dats m 0 c).arrAt 6 cfg0.N = outC (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed_c m c t) covered_6

/-- The kernel's run, read: both result arrays at the cell's two functions of the argument arrays, the arguments
    unchanged. -/
theorem run : θ_run defs (onTc (τ := τ) (main (F := Ideal))) ⟨m, fun _ => 0, ρ⟩ fun r => ∀ c : Dev nD,
      r.2.mem ((c : Thread nD τ).loc main_v0_0) = outH (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = outC (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_h m c), (h c).2.1.trans (final_c m c), (h c).2.2⟩)
    (Cert.KernelIdeal.Value.run_blocks m ρ)

end Cert.LstmCell.Kernel

end
-- ==== Proof.lean ====
/-
  An LSTM cell: the Pallas kernel against its jnp reference, equal as extended reals.

  Both programs compute, for every batch row r and unit q < 512, from the gate pre-activations
      g r j = [x r, h r] · W[:, j] + b j      (j < 2048; columns q, 512 + q, 1024 + q, 1536 + q are unit q's four gates)
  the new cell state  c' = σ(g_f) · c + σ(g_i) · tanh(g_c)  and the new hidden state  h' = σ(g_o) · tanh(c').
  They differ in two places, and each is an identity of the extended reals that needs no finiteness of the inputs:
    * the reference multiplies the joined row [x r, h r] of length 1024 by W in one sum, the kernel adds the product of
      x r with W's upper half to the product of h r with W's lower half: a sum over 1024 terms is the sum over its first
      512 plus the sum over its last 512;
    * the reference's logistic function is 1 / (1 + e^(-z)), the kernel's 1/2 · tanh(z/2) + 1/2: equal at every real, and
      both 1 at +∞ and 0 at -∞.
  The kernel's changes of float format are the identity at the exact instance.

  Modules, in the order they build on each other: LibLogisticTanh (the two literals, the logistic identity), CellSpec (the
  cell as one function of the arrays), RefValue (the reference computes it), KernelPayload (the kernel body's
  arithmetic at an index), KernelBlock (what the body leaves in its two output blocks, its loop's stores as tiles of one
  function), KernelArray (the sixteen blocks make the arrays; the kernel's run).
-/
import proofs.«103331_j47863115547325_2_alg».proof.Defs
import proofs.«103331_j47863115547325_2_alg».proof.Proof.Gen.Kernel
import proofs.«103331_j47863115547325_2_alg».proof.Proof.Gen.Kernel.Skeleton
import proofs.«103331_j47863115547325_2_alg».proof.Proof.Gen.Kernel.Loops
import proofs.«103331_j47863115547325_2_alg».proof.Proof.Gen.Kernel.Launch
import proofs.«103331_j47863115547325_2_alg».proof.Proof.Gen.Kernel.Points
import proofs.«103331_j47863115547325_2_alg».proof.Proof.Gen.Kernel.Frame
import proofs.«103331_j47863115547325_2_alg».proof.Proof.Gen.KernelIdeal
import proofs.«103331_j47863115547325_2_alg».proof.Proof.Gen.KernelIdeal.Skeleton
import proofs.«103331_j47863115547325_2_alg».proof.Proof.Gen.KernelIdeal.Loops
import proofs.«103331_j47863115547325_2_alg».proof.Proof.Gen.KernelIdeal.Launch
import proofs.«103331_j47863115547325_2_alg».proof.Proof.Gen.KernelIdeal.Points
import proofs.«103331_j47863115547325_2_alg».proof.Proof.Gen.KernelIdeal.Frame
import proofs.«103331_j47863115547325_2_alg».proof.Proof.Gen.ReferenceIdeal
import proofs.«103331_j47863115547325_2_alg».proof.Proof.Gen.Pre_finite_inputs
import proofs.«103331_j47863115547325_2_alg».proof.Proof.Gen.KernelIdeal.Value
import proofs.«103331_j47863115547325_2_alg».proof.Proof.Gen.ReferenceIdeal.Run
import proofs.«103331_j47863115547325_2_alg».proof.Proof.Gen.ReferenceIdeal.Read
import proofs.«103331_j47863115547325_2_alg».proof.Proof.KernelArray
import Idealize.ShloMosaic.Adequacy
import Idealize.ShloMosaic.Init

noncomputable section

namespace Cert.Proof

open Idealize.ShloMosaic Idealize.ShloMosaic.TcCoe Idealize.SL.Sem Cert.LstmCell

/-- The word-level kernel runs and leaves its arguments unchanged. -/
theorem frame_kernel : Cert.frame_Kernel := fun m ρ _ => Cert.Kernel.Gen.frame m ρ

/-- So does the kernel at the exact instance. -/
theorem frame_kernel_ideal : Cert.frame_KernelIdeal := fun m ρ _ => Cert.KernelIdeal.Gen.frame m ρ

/-- The reference is a straight line of host operations: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the five arguments, the kernel ends with its two result arrays at the cell's new hidden
    state and new cell state of those arguments, and the reference ends with its two results at the same two arrays. -/
theorem algebraic : Cert.algebraic_KernelIdeal_ReferenceIdeal := by
  intro m ρ m' ρ' _ hagree
  refine ⟨fun c => outH (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4)),
      fun c => outC (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4)),
      Cert.LstmCell.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v32_eq, Cert.LstmCell.Reference.new_h_eq,
      (hagree c).1, (hagree c).2.1, (hagree c).2.2.1, (hagree c).2.2.2.1, (hagree c).2.2.2.2]
  · rw [Cert.ReferenceIdeal.Read.val_main_v24_eq, Cert.LstmCell.Reference.new_c_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
